-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x2048 : Shape := ⟨2, ![2048, 2048]⟩
abbrev S2048 : Shape := ⟨1, ![2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048x2048 .f32) (main_arg15 : FVec F S2048x2048 .f32) (main_arg16 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048x2048 .f32 := Host.absf main_arg16
  let main_cst_30 : FVec F S_ .f32 := constant S_ .f32 0x7F800000#32
  let main_v80 : FVec F S2048x2048 .f32 := broadcastInDim S2048x2048 ![] bcast_S_S2048x2048 main_cst_30
  let main_v81 : IVec S2048x2048 1 := cmpf .olt main_v79 main_v80
  let main_c_31 : IVec S_ 1 := constantI S_ 1 1#1
  let main_v82 : IVec S_ 1 := (fun x v => Host.reduce IntOp.andi x v reducesTo_S2048x2048_S_d0_1 h_S_) main_v81 main_c_31
  let main_v83 : IVec S_ 1 := andi main_v78 main_v82
  main_v83

def fn_part3 {F : FTy → Type} [FloatOps F] (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_v63 main_v67

def fn_part2 {F : FTy → Type} [FloatOps F] (main_arg7 : FVec F S2048x2048 .f32) (main_arg8 : FVec F S2048x2048 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_v48 main_v49 main_v50

def fn_part1 {F : FTy → Type} [FloatOps F] (main_arg4 : FVec F S256x2048 .f32) (main_arg5 : FVec F S2048x2048 .f32) (main_arg6 : FVec F S2048x2048 .f32) (main_arg7 : FVec F S2048x2048 .f32) (main_arg8 : FVec F S2048x2048 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S256x2048 .f32) (main_arg1 : FVec F S256x2048 .f32) (main_arg2 : FVec F S256x2048 .f32) (main_arg3 : FVec F S256x2048 .f32) (main_arg4 : FVec F S256x2048 .f32) (main_arg5 : FVec F S2048x2048 .f32) (main_arg6 : FVec F S2048x2048 .f32) (main_arg7 : FVec F S2048x2048 .f32) (main_arg8 : FVec F S2048x2048 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S4x256x2048 : Shape := ⟨3, ![4, 256, 2048]⟩
abbrev S256x256 : Shape := ⟨2, ![256, 256]⟩
abbrev S2048x256 : Shape := ⟨2, ![2048, 256]⟩
abbrev S1x256 : Shape := ⟨2, ![1, 256]⟩
abbrev S4x256x256 : Shape := ⟨3, ![4, 256, 256]⟩
abbrev S1x256x256 : Shape := ⟨3, ![1, 256, 256]⟩

abbrev nBuf : Space → Nat
  | .hbm => 24
  | .vmem => 34
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S256x2048, .bf16⟩
  | .hbm, ⟨18, _⟩ => ⟨S256x2048, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S4x256x2048, .f32⟩
  | .local _ .vmem, ⟨0, _⟩ => ⟨S256x2048, .bf16⟩
  | .local _ .vmem, ⟨1, _⟩ => ⟨S256x2048, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | .local _ .vmem, ⟨32, _⟩ => ⟨S4x256x256, .f32⟩
  | .local _ .vmem, ⟨33, _⟩ => ⟨S4x256x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  shapeCasts_S256x256_S1x256x256 : S256x256.ShapeCasts S1x256x256
  inb_S4x256x256_S1x256x256_1_0_0 : ∀ a, (![1, 0, 0] : Fin 3 → Nat) a + S1x256x256.size a ≤ S4x256x256.size a
  inb_S4x256x256_S1x256x256_2_0_0 : ∀ a, (![2, 0, 0] : Fin 3 → Nat) a + S1x256x256.size a ≤ S4x256x256.size a
  inb_S4x256x256_S1x256x256_3_0_0 : ∀ a, (![3, 0, 0] : Fin 3 → Nat) a + S1x256x256.size a ≤ S4x256x256.size a
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .bf16 = 32 ∨ (Rect.block (s := S256x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .bf16 = 32 ∨ (Rect.block (s := S256x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x2048.size a
  hwx0_2 : ∀ i : grid0.Coords, EltTy.bits .f32 = 32 ∨ (Rect.block (s := S256x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x2048.size a
  hwx0_3 : ∀ i : grid0.Coords, EltTy.bits .f32 = 32 ∨ (Rect.block (s := S256x2048) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x2048.size a
  hwx0_4 : ∀ i : grid0.Coords, EltTy.bits .f32 = 32 ∨ (Rect.block (s := S256x2048) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .f32 = 32 ∨ (Rect.block (s := S2048x2048) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .f32 = 32 ∨ (Rect.block (s := S2048x2048) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x256.size a ≤ S2048x2048.size a
  hwx0_13 : ∀ i : grid0.Coords, EltTy.bits .f32 = 32 ∨ (Rect.block (s := S2048x2048) S2048x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x256.size a ≤ S2048x2048.size a
  hwx0_14 : ∀ i : grid0.Coords, EltTy.bits .f32 = 32 ∨ (Rect.block (s := S2048x2048) S2048x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x256.size a ≤ S2048x2048.size a
  hwx0_15 : ∀ i : grid0.Coords, EltTy.bits .f32 = 32 ∨ (Rect.block (s := S2048x2048) S2048x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x256.size a ≤ S2048x2048.size a
  hwx0_16 : ∀ i : grid0.Coords, EltTy.bits .f32 = 32 ∨ (Rect.block (s := S2048x2048) S2048x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4x256x256.size a ≤ S4x256x2048.size a
  hwx0_17 : ∀ i : grid0.Coords, EltTy.bits .f32 = 32 ∨ (Rect.block (s := S4x256x2048) S4x256x256.size (cc0_transform_17 i) (hinb0_17 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_v0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2048x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2048x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2048x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2048x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v6) S4x256x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S256x2048 : Shape := ⟨2, ![256, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S256x8192 : Shape := ⟨2, ![256, 8192]⟩
abbrev S1x8192 : Shape := ⟨2, ![1, 8192]⟩
abbrev S_ : Shape := ⟨0, ![]⟩
abbrev S1x256x2048 : Shape := ⟨3, ![1, 256, 2048]⟩
abbrev S4x256x2048 : Shape := ⟨3, ![4, 256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S8192, .f32⟩
  | .hbm, ⟨20, _⟩ => ⟨S256x8192, .f32⟩
  | .hbm, ⟨21, _⟩ => ⟨S256x8192, .f32⟩
  | .hbm, ⟨22, _⟩ => ⟨S256x8192, .f32⟩
  | .hbm, ⟨23, _⟩ => ⟨S1x8192, .f32⟩
  | .hbm, ⟨24, _⟩ => ⟨S256x8192, .f32⟩
  | .hbm, ⟨25, _⟩ => ⟨S256x8192, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S_, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S256x2048, .f32⟩
  | .hbm, ⟨56, _⟩ => ⟨S1x256x2048, .f32⟩
  | .hbm, ⟨57, _⟩ => ⟨S1x256x2048, .f32⟩
  | .hbm, ⟨58, _⟩ => ⟨S1x256x2048, .f32⟩
  | .hbm, ⟨59, _⟩ => ⟨S1x256x2048, .f32⟩
  | .hbm, ⟨60, _⟩ => ⟨S4x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  slices_S256x8192_S256x2048_0_0 : S256x8192.Slices ![0, 0] S256x2048
  slices_S256x8192_S256x2048_0_2048 : S256x8192.Slices ![0, 2048] S256x2048
  slices_S256x8192_S256x2048_0_4096 : S256x8192.Slices ![0, 4096] S256x2048
  slices_S256x8192_S256x2048_0_6144 : S256x8192.Slices ![0, 6144] S256x2048
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  concatenates_S1x256x2048_S1x256x2048_S1x256x2048_S1x256x2048_S4x256x2048_d0 : Shape.Concatenates [S1x256x2048, S1x256x2048, S1x256x2048, S1x256x2048] S4x256x2048 0
  dot_S256x2048_S2048x8192_S256x8192_1_0_0_1_n_n_wf : DotDims.WF S256x2048 S2048x8192 S256x8192 [1] [0] [0] [1] [] []

variable [Facts₀]

def dot_S256x2048_S2048x8192_S256x8192_1_0_0_1_n_n : DotDims S256x2048 S2048x8192 S256x8192 where
  lhsContracting := [1]
  rhsContracting := [0]
  lhsNonContracting := [0]
  rhsNonContracting := [1]
  lhsBatch := []
  rhsBatch := []
  wf := dot_S256x2048_S2048x8192_S256x8192_1_0_0_1_n_n_wf

class Facts : Prop extends Facts₀ where

variable [Facts]
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.Cell.lean ====
/-
  One step of a stabilized, exponentially gated recurrent cell, as mathematics on the extended reals.

  Four gates share one shape. For a batch row `r` and a unit `u`, a gate's pre-activation is the inner product of row `r`
  of the input with column `u` of the gate's input weights, plus the inner product of row `r` of the previous hidden
  state with column `u` of the gate's recurrent weights, plus the gate's bias at `u`. From the four pre-activations
  `pz, pi, pf, po` and the previous stabilizer `mp`, cell `c` and normalizer `n` at `(r, u)`:

    m' = max (pi + mp) pi                 the new stabilizer
    i  = exp (pi - m')                    the input gate, always at most 1
    f  = exp (pf + mp - m')               the forget gate
    c' = f * c + i * tanh pz              the new cell
    n' = f * n + i                        the new normalizer
    h' = logistic po * (c' / (n' + eps))  the new hidden state

  The result stacks `h', c', n', m'` along a leading axis of extent four. Nothing here asks an entry to be finite: every
  operation is the extended reals' own.
-/
import Idealize.ShloMosaic.Lib.ValueIdx
import Idealize.ShloMosaic.PureOps.Ideal

noncomputable section

namespace Cert.Cell

open Idealize.ShloMosaic Idealize.ShloMosaic.ValueIdx

/-- The small constant added to the normalizer before the division: one binary word, the same in both programs, so its
    value is never needed. -/
def eps : EReal := Ideal.ofBits .f32 0x322BCC77#32

/-- The new stabilizer. -/
def mNew (pi mp : EReal) : EReal := max (pi + mp) pi

/-- The input gate. -/
def iGate (pi mp : EReal) : EReal := Ideal.exp (pi - mNew pi mp)

/-- The forget gate. -/
def fGate (pf pi mp : EReal) : EReal := Ideal.exp (pf + mp - mNew pi mp)

/-- The new cell. -/
def cNew (pz pi pf mp c : EReal) : EReal := fGate pf pi mp * c + iGate pi mp * Ideal.tanh pz

/-- The new normalizer. -/
def nNew (pi pf mp n : EReal) : EReal := fGate pf pi mp * n + iGate pi mp

/-- The new hidden state. -/
def hNew (pz pi pf po mp c n : EReal) : EReal :=
  Ideal.logistic po * Ideal.div (cNew pz pi pf mp c) (nNew pi pf mp n + eps)

/-- The four results at one `(r, u)`, by their place on the leading axis: hidden, cell, normalizer, stabilizer. -/
def out (g : Fin 4) (pz pi pf po mp c n : EReal) : EReal :=
  ![hNew pz pi pf po mp c n, cNew pz pi pf mp c, nNew pi pf mp n, mNew pi mp] g

/-- A gate's pre-activation at batch row `r` and unit `u`. -/
def pre (x h : (⟨2, ![256, 2048]⟩ : Shape).Idx → EReal) (W U : (⟨2, ![2048, 2048]⟩ : Shape).Idx → EReal)
    (b : (⟨1, ![2048]⟩ : Shape).Idx → EReal) (r : Fin 256) (u : Fin 2048) : EReal :=
  ((∑ k : Fin 2048, x (ix2 r k) * W (ix2 k u)) + (∑ k : Fin 2048, h (ix2 r k) * U (ix2 k u))) + b (ix1 u)

/-- The whole result, index by index, as one function of the seventeen argument arrays (in the programs' order: input,
    hidden, cell, normalizer, stabilizer; the input weights of the gates z, i, f, o; their biases; their recurrent
    weights). -/
def G (x h c n mp : (⟨2, ![256, 2048]⟩ : Shape).Idx → EReal)
    (Wz Wi Wf Wo : (⟨2, ![2048, 2048]⟩ : Shape).Idx → EReal)
    (bz bi bf bo : (⟨1, ![2048]⟩ : Shape).Idx → EReal)
    (Uz Ui Uf Uo : (⟨2, ![2048, 2048]⟩ : Shape).Idx → EReal) :
    (⟨3, ![4, 256, 2048]⟩ : Shape).Idx → EReal := fun j =>
  out (j 0) (pre x h Wz Uz bz (j 1) (j 2)) (pre x h Wi Ui bi (j 1) (j 2)) (pre x h Wf Uf bf (j 1) (j 2))
    (pre x h Wo Uo bo (j 1) (j 2)) (mp (ix2 (j 1) (j 2))) (c (ix2 (j 1) (j 2))) (n (ix2 (j 1) (j 2)))

end Cert.Cell

end
-- ==== Proof.KernelCell.lean ====
/-
  What the kernel body leaves in its output buffer at one grid point, as a function of the blocks it loads.

  The body sees a tile of 256 units: the whole input and previous hidden state (256 rows by 2048), a 2048-by-256 column
  tile of each of the eight weight matrices, a 1-by-256 tile of each bias, and a 256-by-256 tile of the previous cell,
  normalizer and stabilizer. Each gate's pre-activation over the tile is two matrix products into a zero accumulator
  plus the bias row; a change of float format keeps every entry, and the products are sums over the 2048 shared indices.
  The buffer is written as four slabs `[g, :, :]`, `g = 0, 1, 2, 3`: hidden state, cell, normalizer, stabilizer. The slabs
  tile the buffer, so its contents are one function of the buffer index: the cell's update rule at the tile's entries.
-/
import proofs.«170218_j21380347199691_2_alg».proof.Proof.Gen.KernelIdeal.Frame
import proofs.«170218_j21380347199691_2_alg».proof.Proof.LibDense
import proofs.«170218_j21380347199691_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.KernelCell

open Cert.KernelIdeal Cert.KernelIdeal.Gen Idealize.ShloMosaic Idealize.ShloMosaic.TcCoe Idealize.ShloMosaic.ValueIdx
open Cert.LibDense Cert.Cell

/-- A gate's pre-activation over the tile, at row `p` and tile column `q`. -/
def tilePre (a0 a1 : S256x2048.Idx → EReal) (w u : S2048x256.Idx → EReal) (b : S1x256.Idx → EReal)
    (p q : Fin 256) : EReal :=
  ((∑ k : Fin 2048, a0 (ix2 p k) * w (ix2 k q)) + (∑ k : Fin 2048, a1 (ix2 p k) * u (ix2 k q))) + b (ix2 (0 : Fin 1) q)

/-- Two products into the zero accumulator, added, plus the bias row broadcast down the rows: the pre-activation. -/
theorem dense_apply (a0 a1 : FVec Ideal S256x2048 .bf16) (w u : FVec Ideal S2048x256 .f32) (b : FVec Ideal S1x256 .f32)
    (p q : Fin 256) :
    addf (addf (matmul dot_S256x2048_S2048x256_S256x256_1_0_0_1_n_n none a0 (truncf .bf16 w bitsLt_bf16_f32) (constant S256x256 .f32 0x00000000#32))
               (matmul dot_S256x2048_S2048x256_S256x256_1_0_0_1_n_n none a1 (truncf .bf16 u bitsLt_bf16_f32) (constant S256x256 .f32 0x00000000#32)))
         (broadcastTo S256x256 (shapeCast S1x256 b shapeCasts_S1x256_S1x256) broadcasts_S1x256_S256x256) (ix2 p q)
      = tilePre a0 a1 w u b p q := by
  rw [addf_apply, addf_apply, broadcastTo_1b_ab_apply, shapeCast_self,
    matmul2d_apply (M := 256) (K := 2048) (N := 256) _ rfl rfl rfl rfl rfl rfl,
    matmul2d_apply (M := 256) (K := 2048) (N := 256) _ rfl rfl rfl rfl rfl rfl]
  rfl

/-! ## The body's values at an index

Each lemma reads one named value of the body at an explicit row `p` and tile column `q`. -/

section Values

variable (v0 v2 : Vec Ideal S256x2048 .bf16) (v1 v3 : FVec Ideal S256x2048 .bf16)
variable (v4 v58 v59 : Vec Ideal S256x256 .f32) (v19 v33 : FVec Ideal S256x256 .f32)
variable (v5 v7 v20 v22 v34 v36 v46 v48 : Vec Ideal S2048x256 .f32) (v12 v27 v41 v53 : Vec Ideal S1x256 .f32)
variable (u : Fin 1) (p q : Fin 256)

/-- The input gate's pre-activation. -/
theorem pay6_apply : k0_pay6 v0 v2 v5 v7 v12 (ix2 p q) = tilePre v0 v2 v5 v7 v12 p q := by
  unfold k0_pay6 k0_pay4 k0_pay5
  dsimp only
  rw [dense_apply, shapeCast_self, shapeCast_self]

/-- The new stabilizer: the larger of the input gate's pre-activation shifted by the old stabilizer, and itself. -/
theorem pay7_apply : k0_pay7 v0 v2 v4 v5 v7 v12 (ix2 p q) = mNew (tilePre v0 v2 v5 v7 v12 p q) (v4 (ix2 p q)) := by
  unfold k0_pay7
  rw [maximumf_apply, addf_apply, pay6_apply]
  rfl

/-- The input gate. -/
theorem pay8_apply : k0_pay8 v0 v2 v4 v5 v7 v12 (ix2 p q) = iGate (tilePre v0 v2 v5 v7 v12 p q) (v4 (ix2 p q)) := by
  unfold k0_pay8
  rw [exp_apply, subf_apply, pay6_apply, pay7_apply]
  rfl

/-- The forget gate: its own pre-activation shifted by the old stabilizer, less the new one, exponentiated. -/
theorem pay9_apply : k0_pay9 v0 v2 v4 v5 v7 v12 v20 v22 v27 (ix2 p q)
    = fGate (tilePre v0 v2 v20 v22 v27 p q) (tilePre v0 v2 v5 v7 v12 p q) (v4 (ix2 p q)) := by
  unfold k0_pay9 k0_pay4 k0_pay5
  dsimp only
  rw [exp_apply, subf_apply, addf_apply, dense_apply, pay7_apply, shapeCast_self, shapeCast_self]
  rfl

/-- The new cell, from the two gates' values: forget gate times old cell, plus input gate times the squashed candidate. -/
theorem pay10_apply : k0_pay10 v1 v3 v19 v33 v34 v36 v41 v58 (ix2 p q)
    = v33 (ix2 p q) * v58 (ix2 p q) + v19 (ix2 p q) * Ideal.tanh (tilePre v1 v3 v34 v36 v41 p q) := by
  unfold k0_pay10
  rw [addf_apply, mulf_apply, mulf_apply, tanh_apply, dense_apply]

/-- The new normalizer, from the two gates' values. -/
theorem pay11_apply : k0_pay11 v19 v33 v59 (ix2 p q) = v33 (ix2 p q) * v59 (ix2 p q) + v19 (ix2 p q) := rfl

/-- The new hidden state, with a unit axis in front: the output gate times the cell over the shifted normalizer. -/
theorem pay12_apply : k0_pay12 v1 v3 v19 v33 v34 v36 v41 v46 v48 v53 v58 v59 (ix3 u p q)
    = Ideal.logistic (tilePre v1 v3 v46 v48 v53 p q)
        * Ideal.div (k0_pay10 v1 v3 v19 v33 v34 v36 v41 v58 (ix2 p q)) (k0_pay11 v19 v33 v59 (ix2 p q) + eps) := by
  unfold k0_pay12
  rw [shapeCast_ab_1ab_apply, mulf_apply, logistic_apply, dense_apply, divf_apply, addf_apply]
  rfl

end Values

/-! ## The four slabs, and the buffer as one function of its index -/

section Slabs

variable (x0 x1 : Vec Ideal S256x2048 .bf16) (x2 x3 x4 : Vec Ideal S256x256 .f32)
variable (x5 x6 x7 x8 : Vec Ideal S2048x256 .f32) (x9 x10 x11 x12 : Vec Ideal S1x256 .f32)
variable (x13 x14 x15 x16 : Vec Ideal S2048x256 .f32)

/-- The stabilizer's slab. -/
theorem slab_m (x : S1x256x256.Idx) : k0_pay3 (k0_pay7 x0 x1 x4 x6 x14 x10) x
    = mNew (tilePre x0 x1 x6 x14 x10 (x 1) (x 2)) (x4 (ix2 (x 1) (x 2))) := by
  obtain ⟨u, p, q, rfl⟩ : ∃ (u : Fin 1) (p q : Fin 256), x = ix3 u p q := ⟨x 0, x 1, x 2, eq_ix3 x⟩
  show _ = mNew (tilePre x0 x1 x6 x14 x10 p q) (x4 (ix2 p q))
  unfold k0_pay3
  rw [shapeCast_ab_1ab_apply, pay7_apply]

/-- The normalizer's slab. -/
theorem slab_n (x : S1x256x256.Idx) :
    k0_pay2 (k0_pay11 (k0_pay8 x0 x1 x4 x6 x14 x10) (k0_pay9 x0 x1 x4 x6 x14 x10 x7 x15 x11) x3) x
    = nNew (tilePre x0 x1 x6 x14 x10 (x 1) (x 2)) (tilePre x0 x1 x7 x15 x11 (x 1) (x 2)) (x4 (ix2 (x 1) (x 2)))
        (x3 (ix2 (x 1) (x 2))) := by
  obtain ⟨u, p, q, rfl⟩ : ∃ (u : Fin 1) (p q : Fin 256), x = ix3 u p q := ⟨x 0, x 1, x 2, eq_ix3 x⟩
  show _ = nNew (tilePre x0 x1 x6 x14 x10 p q) (tilePre x0 x1 x7 x15 x11 p q) (x4 (ix2 p q)) (x3 (ix2 p q))
  unfold k0_pay2
  rw [shapeCast_ab_1ab_apply, pay11_apply, pay8_apply, pay9_apply]
  rfl

/-- The cell's slab. -/
theorem slab_c (x : S1x256x256.Idx) :
    k0_pay1 (k0_pay10 (k0_pay4 x0) (k0_pay5 x1) (k0_pay8 x0 x1 x4 x6 x14 x10) (k0_pay9 x0 x1 x4 x6 x14 x10 x7 x15 x11)
      x5 x13 x9 x2) x
    = cNew (tilePre x0 x1 x5 x13 x9 (x 1) (x 2)) (tilePre x0 x1 x6 x14 x10 (x 1) (x 2))
        (tilePre x0 x1 x7 x15 x11 (x 1) (x 2)) (x4 (ix2 (x 1) (x 2))) (x2 (ix2 (x 1) (x 2))) := by
  obtain ⟨u, p, q, rfl⟩ : ∃ (u : Fin 1) (p q : Fin 256), x = ix3 u p q := ⟨x 0, x 1, x 2, eq_ix3 x⟩
  show _ = cNew (tilePre x0 x1 x5 x13 x9 p q) (tilePre x0 x1 x6 x14 x10 p q) (tilePre x0 x1 x7 x15 x11 p q)
    (x4 (ix2 p q)) (x2 (ix2 p q))
  unfold k0_pay1
  rw [shapeCast_ab_1ab_apply, pay10_apply, pay8_apply, pay9_apply]
  simp only [k0_pay4, k0_pay5, shapeCast_self]
  rfl

/-- The hidden state's slab. -/
theorem slab_h (x : S1x256x256.Idx) :
    k0_pay12 (k0_pay4 x0) (k0_pay5 x1) (k0_pay8 x0 x1 x4 x6 x14 x10) (k0_pay9 x0 x1 x4 x6 x14 x10 x7 x15 x11)
      x5 x13 x9 x8 x16 x12 x2 x3 x
    = hNew (tilePre x0 x1 x5 x13 x9 (x 1) (x 2)) (tilePre x0 x1 x6 x14 x10 (x 1) (x 2))
        (tilePre x0 x1 x7 x15 x11 (x 1) (x 2)) (tilePre x0 x1 x8 x16 x12 (x 1) (x 2)) (x4 (ix2 (x 1) (x 2)))
        (x2 (ix2 (x 1) (x 2))) (x3 (ix2 (x 1) (x 2))) := by
  obtain ⟨u, p, q, rfl⟩ : ∃ (u : Fin 1) (p q : Fin 256), x = ix3 u p q := ⟨x 0, x 1, x 2, eq_ix3 x⟩
  show _ = hNew (tilePre x0 x1 x5 x13 x9 p q) (tilePre x0 x1 x6 x14 x10 p q) (tilePre x0 x1 x7 x15 x11 p q)
    (tilePre x0 x1 x8 x16 x12 p q) (x4 (ix2 p q)) (x2 (ix2 p q)) (x3 (ix2 p q))
  rw [pay12_apply, pay10_apply, pay11_apply, pay8_apply, pay9_apply]
  simp only [k0_pay4, k0_pay5, shapeCast_self]
  rfl

/-- The output buffer after the body, index by index: at `(g, p, q)` the `g`-th result of the cell's update at the tile's
    entry `(p, q)`. -/
def tile : S4x256x256.Idx → EReal := fun y =>
  Cell.out (y 0) (tilePre x0 x1 x5 x13 x9 (y 1) (y 2)) (tilePre x0 x1 x6 x14 x10 (y 1) (y 2))
    (tilePre x0 x1 x7 x15 x11 (y 1) (y 2)) (tilePre x0 x1 x8 x16 x12 (y 1) (y 2)) (x4 (ix2 (y 1) (y 2)))
    (x2 (ix2 (y 1) (y 2))) (x3 (ix2 (y 1) (y 2)))

theorem zero2 : (![0, 0] : Fin 2 → Nat) = fun _ => 0 := funext fun a => by fin_cases a <;> rfl

/-- The four slabs tile the buffer, and each holds its result: the buffer is `tile`. -/
theorem out_eq : out0_17 (F := Ideal) x0 x1 x2 x3 x4 x5 x6 x7 x8 x9 x10 x11 x12 x13 x14 x15 x16 = tile x0 x1 x2 x3 x4 x5 x6 x7 x8 x9 x10 x11 x12 x13 x14 x15 x16 := by
  funext y
  unfold out0_17
  simp only [View.ld_unit_zero (S := S256x2048) zero2, View.ld_unit_zero (S := S256x256) zero2,
    View.ld_unit_zero (S := S2048x256) zero2, View.ld_unit_zero (S := S1x256) zero2]
  refine View.canon_apply_of_pieces (Val := Elt Ideal) (tile x0 x1 x2 x3 x4 x5 x6 x7 x8 x9 x10 x11 x12 x13 x14 x15 x16) _ ?_ y (cover0_17 _ _ _ _ y)
  intro pc hpc x
  simp only [List.mem_cons, List.mem_nil_iff, or_false] at hpc
  rcases hpc with rfl | rfl | rfl | rfl
  · have e : (r0_7 : Rect S4x256x256).emb x = ix3 (3 : Fin 4) (x 1) (x 2) := funext fun a => Fin.ext (by
      match a with
      | ⟨0, _⟩ => show 3 + 1 * (x 0).val = 3; have h0 : (x 0).val < 1 := (x 0).isLt; omega
      | ⟨1, _⟩ => show 0 + 1 * (x 1).val = (x 1).val; omega
      | ⟨2, _⟩ => show 0 + 1 * (x 2).val = (x 2).val; omega)
    show _ = tile x0 x1 x2 x3 x4 x5 x6 x7 x8 x9 x10 x11 x12 x13 x14 x15 x16 ((r0_7 : Rect S4x256x256).emb x)
    rw [e]
    exact slab_m x0 x1 x4 x6 x10 x14 x
  · have e : (r0_6 : Rect S4x256x256).emb x = ix3 (2 : Fin 4) (x 1) (x 2) := funext fun a => Fin.ext (by
      match a with
      | ⟨0, _⟩ => show 2 + 1 * (x 0).val = 2; have h0 : (x 0).val < 1 := (x 0).isLt; omega
      | ⟨1, _⟩ => show 0 + 1 * (x 1).val = (x 1).val; omega
      | ⟨2, _⟩ => show 0 + 1 * (x 2).val = (x 2).val; omega)
    show _ = tile x0 x1 x2 x3 x4 x5 x6 x7 x8 x9 x10 x11 x12 x13 x14 x15 x16 ((r0_6 : Rect S4x256x256).emb x)
    rw [e]
    exact slab_n x0 x1 x3 x4 x6 x7 x10 x11 x14 x15 x
  · have e : (r0_5 : Rect S4x256x256).emb x = ix3 (1 : Fin 4) (x 1) (x 2) := funext fun a => Fin.ext (by
      match a with
      | ⟨0, _⟩ => show 1 + 1 * (x 0).val = 1; have h0 : (x 0).val < 1 := (x 0).isLt; omega
      | ⟨1, _⟩ => show 0 + 1 * (x 1).val = (x 1).val; omega
      | ⟨2, _⟩ => show 0 + 1 * (x 2).val = (x 2).val; omega)
    show _ = tile x0 x1 x2 x3 x4 x5 x6 x7 x8 x9 x10 x11 x12 x13 x14 x15 x16 ((r0_5 : Rect S4x256x256).emb x)
    rw [e]
    exact slab_c x0 x1 x2 x4 x5 x6 x7 x9 x10 x11 x13 x14 x15 x
  · have e : (r0_4 : Rect S4x256x256).emb x = ix3 (0 : Fin 4) (x 1) (x 2) := funext fun a => Fin.ext (by
      match a with
      | ⟨0, _⟩ => show 0 + 1 * (x 0).val = 0; have h0 : (x 0).val < 1 := (x 0).isLt; omega
      | ⟨1, _⟩ => show 0 + 1 * (x 1).val = (x 1).val; omega
      | ⟨2, _⟩ => show 0 + 1 * (x 2).val = (x 2).val; omega)
    show _ = tile x0 x1 x2 x3 x4 x5 x6 x7 x8 x9 x10 x11 x12 x13 x14 x15 x16 ((r0_4 : Rect S4x256x256).emb x)
    rw [e]
    exact slab_h x0 x1 x2 x3 x4 x5 x6 x7 x8 x9 x10 x11 x12 x13 x14 x15 x16 x

end Slabs

end Cert.KernelCell

end
-- ==== Proof.Tiles.lean ====
/-
  From the tiles to the whole array.

  The grid has eight points. At point `t` the kernel sees units `t * 256 ... t * 256 + 255`: that column tile of every
  weight matrix, of every bias and of the previous cell, normalizer and stabilizer, together with the whole input and the
  whole previous hidden state, and it writes back the same column tile of all four result slabs. The input and the hidden
  state reach the kernel through a change of float format, which keeps every entry, and each bias as one row.

  So an entry `(p, q)` of a tile at point `t` is the entry `(p, t * 256 + q)` of the array it was cut from, the tile's
  pre-activations are the cell's at unit `t * 256 + q`, and what point `t` writes back is the tile of the cell's update rule.
  Every unit lies in exactly one tile (`u / 256`), so after the last point the result array is the update rule everywhere.
-/
import proofs.«170218_j21380347199691_2_alg».proof.Proof.Gen.KernelIdeal.Value
import proofs.«170218_j21380347199691_2_alg».proof.Proof.KernelCell
import proofs.«170218_j21380347199691_2_alg».proof.Proof.Cell
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.Tiles

open Cert.KernelIdeal Cert.KernelIdeal.Gen Idealize.ShloMosaic Idealize.ShloMosaic.TcCoe Idealize.SL.Sem
open Idealize.ShloMosaic.ValueIdx
open Idealize.ShloMosaic.Pipeline (Dat)
open Cert.Cell Cert.KernelCell

variable (m : (ℓ : Loc nD τ sig) → Buf (Elt Ideal) ℓ) (ρ : Dev nD → PrngReg)

/-! ## Where each window's block sits, decided over the eight points -/

theorem ix_w0 : ∀ t : Fin cfg0.N, win0_0.index t (0 : Fin 2) = 0 ∧ win0_0.index t (1 : Fin 2) = 0 :=
  (by decide +kernel : ∀ t : Fin grid0.N, _)
theorem ix_w1 : ∀ t : Fin cfg0.N, win0_1.index t (0 : Fin 2) = 0 ∧ win0_1.index t (1 : Fin 2) = 0 :=
  (by decide +kernel : ∀ t : Fin grid0.N, _)
theorem ix_w2 : ∀ t : Fin cfg0.N, win0_2.index t (0 : Fin 2) = 0 ∧ win0_2.index t (1 : Fin 2) = t.val :=
  (by decide +kernel : ∀ t : Fin grid0.N, _)
theorem ix_w3 : ∀ t : Fin cfg0.N, win0_3.index t (0 : Fin 2) = 0 ∧ win0_3.index t (1 : Fin 2) = t.val :=
  (by decide +kernel : ∀ t : Fin grid0.N, _)
theorem ix_w4 : ∀ t : Fin cfg0.N, win0_4.index t (0 : Fin 2) = 0 ∧ win0_4.index t (1 : Fin 2) = t.val :=
  (by decide +kernel : ∀ t : Fin grid0.N, _)
theorem ix_w5 : ∀ t : Fin cfg0.N, win0_5.index t (0 : Fin 2) = 0 ∧ win0_5.index t (1 : Fin 2) = t.val :=
  (by decide +kernel : ∀ t : Fin grid0.N, _)
theorem ix_w6 : ∀ t : Fin cfg0.N, win0_6.index t (0 : Fin 2) = 0 ∧ win0_6.index t (1 : Fin 2) = t.val :=
  (by decide +kernel : ∀ t : Fin grid0.N, _)
theorem ix_w7 : ∀ t : Fin cfg0.N, win0_7.index t (0 : Fin 2) = 0 ∧ win0_7.index t (1 : Fin 2) = t.val :=
  (by decide +kernel : ∀ t : Fin grid0.N, _)
theorem ix_w8 : ∀ t : Fin cfg0.N, win0_8.index t (0 : Fin 2) = 0 ∧ win0_8.index t (1 : Fin 2) = t.val :=
  (by decide +kernel : ∀ t : Fin grid0.N, _)
theorem ix_w9 : ∀ t : Fin cfg0.N, win0_9.index t (0 : Fin 2) = 0 ∧ win0_9.index t (1 : Fin 2) = t.val :=
  (by decide +kernel : ∀ t : Fin grid0.N, _)
theorem ix_w10 : ∀ t : Fin cfg0.N, win0_10.index t (0 : Fin 2) = 0 ∧ win0_10.index t (1 : Fin 2) = t.val :=
  (by decide +kernel : ∀ t : Fin grid0.N, _)
theorem ix_w11 : ∀ t : Fin cfg0.N, win0_11.index t (0 : Fin 2) = 0 ∧ win0_11.index t (1 : Fin 2) = t.val :=
  (by decide +kernel : ∀ t : Fin grid0.N, _)
theorem ix_w12 : ∀ t : Fin cfg0.N, win0_12.index t (0 : Fin 2) = 0 ∧ win0_12.index t (1 : Fin 2) = t.val :=
  (by decide +kernel : ∀ t : Fin grid0.N, _)
theorem ix_w13 : ∀ t : Fin cfg0.N, win0_13.index t (0 : Fin 2) = 0 ∧ win0_13.index t (1 : Fin 2) = t.val :=
  (by decide +kernel : ∀ t : Fin grid0.N, _)
theorem ix_w14 : ∀ t : Fin cfg0.N, win0_14.index t (0 : Fin 2) = 0 ∧ win0_14.index t (1 : Fin 2) = t.val :=
  (by decide +kernel : ∀ t : Fin grid0.N, _)
theorem ix_w15 : ∀ t : Fin cfg0.N, win0_15.index t (0 : Fin 2) = 0 ∧ win0_15.index t (1 : Fin 2) = t.val :=
  (by decide +kernel : ∀ t : Fin grid0.N, _)
theorem ix_w16 : ∀ t : Fin cfg0.N, win0_16.index t (0 : Fin 2) = 0 ∧ win0_16.index t (1 : Fin 2) = t.val :=
  (by decide +kernel : ∀ t : Fin grid0.N, _)
theorem ix_w17 : ∀ t : Fin cfg0.N, win0_17.index t (0 : Fin 3) = 0 ∧ win0_17.index t (1 : Fin 3) = 0 ∧ win0_17.index t (2 : Fin 3) = t.val :=
  (by decide +kernel : ∀ t : Fin grid0.N, _)

/-! ## What the region finds in the operands the host wrote -/

/-- The region finds the input, whose change of float format keeps every entry. -/
theorem host_row0 (c : Dev nD) : (V m c main_v0 : S256x2048.Idx → EReal) = (m ((c : Thread nD τ).loc main_arg0)) := by
  dsimp only [Gen.V, Gen.hostOps0]
  after_results
  rfl
/-- The region finds the previous hidden state, whose change of float format keeps every entry. -/
theorem host_row1 (c : Dev nD) : (V m c main_v1 : S256x2048.Idx → EReal) = (m ((c : Thread nD τ).loc main_arg1)) := by
  dsimp only [Gen.V, Gen.hostOps0]
  after_results
  rfl
/-- The region finds bias 0 laid out as one row. -/
theorem host_bias9 (c : Dev nD) : (V m c main_v2 : S1x2048.Idx → EReal) = shapeCast S1x2048 (m ((c : Thread nD τ).loc main_arg9)) shapeCasts_S2048_S1x2048 := by
  dsimp only [Gen.V, Gen.hostOps0]
  after_results
  rfl
/-- The region finds bias 1 laid out as one row. -/
theorem host_bias10 (c : Dev nD) : (V m c main_v3 : S1x2048.Idx → EReal) = shapeCast S1x2048 (m ((c : Thread nD τ).loc main_arg10)) shapeCasts_S2048_S1x2048 := by
  dsimp only [Gen.V, Gen.hostOps0]
  after_results
  rfl
/-- The region finds bias 2 laid out as one row. -/
theorem host_bias11 (c : Dev nD) : (V m c main_v4 : S1x2048.Idx → EReal) = shapeCast S1x2048 (m ((c : Thread nD τ).loc main_arg11)) shapeCasts_S2048_S1x2048 := by
  dsimp only [Gen.V, Gen.hostOps0]
  after_results
  rfl
/-- The region finds bias 3 laid out as one row. -/
theorem host_bias12 (c : Dev nD) : (V m c main_v5 : S1x2048.Idx → EReal) = shapeCast S1x2048 (m ((c : Thread nD τ).loc main_arg12)) shapeCasts_S2048_S1x2048 := by
  dsimp only [Gen.V, Gen.hostOps0]
  after_results
  rfl

/-! ## A block entry is an entry of the argument array -/

/-- Window 0 holds the whole array at every point. -/
theorem blk0 (c : Dev nD) (t : Fin cfg0.N) (p : Fin 256) (k : Fin 2048) :
    iblk m c 0 t (ix2 p k) = (m ((c : Thread nD τ).loc main_arg0)) (ix2 p k) := by
  obtain ⟨e0, e1⟩ := ix_w0 t
  show V m c main_v0 (((cfg0.win 0).blk t).view.emb (ix2 p k)) = _
  rw [show (V m c main_v0 : S256x2048.Idx → EReal) = (m ((c : Thread nD τ).loc main_arg0)) from host_row0 m c]
  refine congrArg _ (funext fun a => Fin.ext ?_)
  match a with
  | ⟨0, _⟩ => show win0_0.index t (0 : Fin 2) * 256 + 1 * p.val = p.val; omega
  | ⟨1, _⟩ => show win0_0.index t (1 : Fin 2) * 2048 + 1 * k.val = k.val; omega
/-- Window 1 holds the whole array at every point. -/
theorem blk1 (c : Dev nD) (t : Fin cfg0.N) (p : Fin 256) (k : Fin 2048) :
    iblk m c 1 t (ix2 p k) = (m ((c : Thread nD τ).loc main_arg1)) (ix2 p k) := by
  obtain ⟨e0, e1⟩ := ix_w1 t
  show V m c main_v1 (((cfg0.win 1).blk t).view.emb (ix2 p k)) = _
  rw [show (V m c main_v1 : S256x2048.Idx → EReal) = (m ((c : Thread nD τ).loc main_arg1)) from host_row1 m c]
  refine congrArg _ (funext fun a => Fin.ext ?_)
  match a with
  | ⟨0, _⟩ => show win0_1.index t (0 : Fin 2) * 256 + 1 * p.val = p.val; omega
  | ⟨1, _⟩ => show win0_1.index t (1 : Fin 2) * 2048 + 1 * k.val = k.val; omega
/-- Window 2's block at point `t` is columns `t * 256 ... t * 256 + 255` of its array. -/
theorem blk2 (c : Dev nD) (t : Fin cfg0.N) (p q : Fin 256) (u : Fin 2048) (hu : u.val = t.val * 256 + q.val) :
    iblk m c 2 t (ix2 p q) = (m ((c : Thread nD τ).loc main_arg2)) (ix2 p u) := by
  obtain ⟨e0, e1⟩ := ix_w2 t
  show V m c main_arg2 (((cfg0.win 2).blk t).view.emb (ix2 p q)) = _
  rw [V_main_arg2]
  refine congrArg _ (funext fun a => Fin.ext ?_)
  match a with
  | ⟨0, _⟩ => show win0_2.index t (0 : Fin 2) * 256 + 1 * p.val = p.val; omega
  | ⟨1, _⟩ => show win0_2.index t (1 : Fin 2) * 256 + 1 * q.val = u.val; omega
/-- Window 3's block at point `t` is columns `t * 256 ... t * 256 + 255` of its array. -/
theorem blk3 (c : Dev nD) (t : Fin cfg0.N) (p q : Fin 256) (u : Fin 2048) (hu : u.val = t.val * 256 + q.val) :
    iblk m c 3 t (ix2 p q) = (m ((c : Thread nD τ).loc main_arg3)) (ix2 p u) := by
  obtain ⟨e0, e1⟩ := ix_w3 t
  show V m c main_arg3 (((cfg0.win 3).blk t).view.emb (ix2 p q)) = _
  rw [V_main_arg3]
  refine congrArg _ (funext fun a => Fin.ext ?_)
  match a with
  | ⟨0, _⟩ => show win0_3.index t (0 : Fin 2) * 256 + 1 * p.val = p.val; omega
  | ⟨1, _⟩ => show win0_3.index t (1 : Fin 2) * 256 + 1 * q.val = u.val; omega
/-- Window 4's block at point `t` is columns `t * 256 ... t * 256 + 255` of its array. -/
theorem blk4 (c : Dev nD) (t : Fin cfg0.N) (p q : Fin 256) (u : Fin 2048) (hu : u.val = t.val * 256 + q.val) :
    iblk m c 4 t (ix2 p q) = (m ((c : Thread nD τ).loc main_arg4)) (ix2 p u) := by
  obtain ⟨e0, e1⟩ := ix_w4 t
  show V m c main_arg4 (((cfg0.win 4).blk t).view.emb (ix2 p q)) = _
  rw [V_main_arg4]
  refine congrArg _ (funext fun a => Fin.ext ?_)
  match a with
  | ⟨0, _⟩ => show win0_4.index t (0 : Fin 2) * 256 + 1 * p.val = p.val; omega
  | ⟨1, _⟩ => show win0_4.index t (1 : Fin 2) * 256 + 1 * q.val = u.val; omega
/-- Window 5's block at point `t` is columns `t * 256 ... t * 256 + 255` of its matrix. -/
theorem blk5 (c : Dev nD) (t : Fin cfg0.N) (k : Fin 2048) (q : Fin 256) (u : Fin 2048) (hu : u.val = t.val * 256 + q.val) :
    iblk m c 5 t (ix2 k q) = (m ((c : Thread nD τ).loc main_arg5)) (ix2 k u) := by
  obtain ⟨e0, e1⟩ := ix_w5 t
  show V m c main_arg5 (((cfg0.win 5).blk t).view.emb (ix2 k q)) = _
  rw [V_main_arg5]
  refine congrArg _ (funext fun a => Fin.ext ?_)
  match a with
  | ⟨0, _⟩ => show win0_5.index t (0 : Fin 2) * 2048 + 1 * k.val = k.val; omega
  | ⟨1, _⟩ => show win0_5.index t (1 : Fin 2) * 256 + 1 * q.val = u.val; omega
/-- Window 6's block at point `t` is columns `t * 256 ... t * 256 + 255` of its matrix. -/
theorem blk6 (c : Dev nD) (t : Fin cfg0.N) (k : Fin 2048) (q : Fin 256) (u : Fin 2048) (hu : u.val = t.val * 256 + q.val) :
    iblk m c 6 t (ix2 k q) = (m ((c : Thread nD τ).loc main_arg6)) (ix2 k u) := by
  obtain ⟨e0, e1⟩ := ix_w6 t
  show V m c main_arg6 (((cfg0.win 6).blk t).view.emb (ix2 k q)) = _
  rw [V_main_arg6]
  refine congrArg _ (funext fun a => Fin.ext ?_)
  match a with
  | ⟨0, _⟩ => show win0_6.index t (0 : Fin 2) * 2048 + 1 * k.val = k.val; omega
  | ⟨1, _⟩ => show win0_6.index t (1 : Fin 2) * 256 + 1 * q.val = u.val; omega
/-- Window 7's block at point `t` is columns `t * 256 ... t * 256 + 255` of its matrix. -/
theorem blk7 (c : Dev nD) (t : Fin cfg0.N) (k : Fin 2048) (q : Fin 256) (u : Fin 2048) (hu : u.val = t.val * 256 + q.val) :
    iblk m c 7 t (ix2 k q) = (m ((c : Thread nD τ).loc main_arg7)) (ix2 k u) := by
  obtain ⟨e0, e1⟩ := ix_w7 t
  show V m c main_arg7 (((cfg0.win 7).blk t).view.emb (ix2 k q)) = _
  rw [V_main_arg7]
  refine congrArg _ (funext fun a => Fin.ext ?_)
  match a with
  | ⟨0, _⟩ => show win0_7.index t (0 : Fin 2) * 2048 + 1 * k.val = k.val; omega
  | ⟨1, _⟩ => show win0_7.index t (1 : Fin 2) * 256 + 1 * q.val = u.val; omega
/-- Window 8's block at point `t` is columns `t * 256 ... t * 256 + 255` of its matrix. -/
theorem blk8 (c : Dev nD) (t : Fin cfg0.N) (k : Fin 2048) (q : Fin 256) (u : Fin 2048) (hu : u.val = t.val * 256 + q.val) :
    iblk m c 8 t (ix2 k q) = (m ((c : Thread nD τ).loc main_arg8)) (ix2 k u) := by
  obtain ⟨e0, e1⟩ := ix_w8 t
  show V m c main_arg8 (((cfg0.win 8).blk t).view.emb (ix2 k q)) = _
  rw [V_main_arg8]
  refine congrArg _ (funext fun a => Fin.ext ?_)
  match a with
  | ⟨0, _⟩ => show win0_8.index t (0 : Fin 2) * 2048 + 1 * k.val = k.val; omega
  | ⟨1, _⟩ => show win0_8.index t (1 : Fin 2) * 256 + 1 * q.val = u.val; omega
/-- Window 9's block at point `t` is entries `t * 256 ... t * 256 + 255` of its bias, laid out as one row. -/
theorem blk9 (c : Dev nD) (t : Fin cfg0.N) (q : Fin 256) (u : Fin 2048) (hu : u.val = t.val * 256 + q.val) :
    iblk m c 9 t (ix2 (0 : Fin 1) q) = (m ((c : Thread nD τ).loc main_arg9)) (ix1 u) := by
  obtain ⟨e0, e1⟩ := ix_w9 t
  show V m c main_v2 (((cfg0.win 9).blk t).view.emb (ix2 (0 : Fin 1) q)) = _
  rw [show (V m c main_v2 : S1x2048.Idx → EReal) = shapeCast S1x2048 (m ((c : Thread nD τ).loc main_arg9)) shapeCasts_S2048_S1x2048 from host_bias9 m c,
    show ((cfg0.win 9).blk t).view.emb (ix2 (0 : Fin 1) q) = ix2 (0 : Fin 1) u from funext fun a => Fin.ext (by
      match a with
      | ⟨0, _⟩ => show win0_9.index t (0 : Fin 2) * 1 + 1 * 0 = 0; omega
      | ⟨1, _⟩ => show win0_9.index t (1 : Fin 2) * 256 + 1 * q.val = u.val; omega),
    shapeCast_a_1a_apply]
/-- Window 10's block at point `t` is entries `t * 256 ... t * 256 + 255` of its bias, laid out as one row. -/
theorem blk10 (c : Dev nD) (t : Fin cfg0.N) (q : Fin 256) (u : Fin 2048) (hu : u.val = t.val * 256 + q.val) :
    iblk m c 10 t (ix2 (0 : Fin 1) q) = (m ((c : Thread nD τ).loc main_arg10)) (ix1 u) := by
  obtain ⟨e0, e1⟩ := ix_w10 t
  show V m c main_v3 (((cfg0.win 10).blk t).view.emb (ix2 (0 : Fin 1) q)) = _
  rw [show (V m c main_v3 : S1x2048.Idx → EReal) = shapeCast S1x2048 (m ((c : Thread nD τ).loc main_arg10)) shapeCasts_S2048_S1x2048 from host_bias10 m c,
    show ((cfg0.win 10).blk t).view.emb (ix2 (0 : Fin 1) q) = ix2 (0 : Fin 1) u from funext fun a => Fin.ext (by
      match a with
      | ⟨0, _⟩ => show win0_10.index t (0 : Fin 2) * 1 + 1 * 0 = 0; omega
      | ⟨1, _⟩ => show win0_10.index t (1 : Fin 2) * 256 + 1 * q.val = u.val; omega),
    shapeCast_a_1a_apply]
/-- Window 11's block at point `t` is entries `t * 256 ... t * 256 + 255` of its bias, laid out as one row. -/
theorem blk11 (c : Dev nD) (t : Fin cfg0.N) (q : Fin 256) (u : Fin 2048) (hu : u.val = t.val * 256 + q.val) :
    iblk m c 11 t (ix2 (0 : Fin 1) q) = (m ((c : Thread nD τ).loc main_arg11)) (ix1 u) := by
  obtain ⟨e0, e1⟩ := ix_w11 t
  show V m c main_v4 (((cfg0.win 11).blk t).view.emb (ix2 (0 : Fin 1) q)) = _
  rw [show (V m c main_v4 : S1x2048.Idx → EReal) = shapeCast S1x2048 (m ((c : Thread nD τ).loc main_arg11)) shapeCasts_S2048_S1x2048 from host_bias11 m c,
    show ((cfg0.win 11).blk t).view.emb (ix2 (0 : Fin 1) q) = ix2 (0 : Fin 1) u from funext fun a => Fin.ext (by
      match a with
      | ⟨0, _⟩ => show win0_11.index t (0 : Fin 2) * 1 + 1 * 0 = 0; omega
      | ⟨1, _⟩ => show win0_11.index t (1 : Fin 2) * 256 + 1 * q.val = u.val; omega),
    shapeCast_a_1a_apply]
/-- Window 12's block at point `t` is entries `t * 256 ... t * 256 + 255` of its bias, laid out as one row. -/
theorem blk12 (c : Dev nD) (t : Fin cfg0.N) (q : Fin 256) (u : Fin 2048) (hu : u.val = t.val * 256 + q.val) :
    iblk m c 12 t (ix2 (0 : Fin 1) q) = (m ((c : Thread nD τ).loc main_arg12)) (ix1 u) := by
  obtain ⟨e0, e1⟩ := ix_w12 t
  show V m c main_v5 (((cfg0.win 12).blk t).view.emb (ix2 (0 : Fin 1) q)) = _
  rw [show (V m c main_v5 : S1x2048.Idx → EReal) = shapeCast S1x2048 (m ((c : Thread nD τ).loc main_arg12)) shapeCasts_S2048_S1x2048 from host_bias12 m c,
    show ((cfg0.win 12).blk t).view.emb (ix2 (0 : Fin 1) q) = ix2 (0 : Fin 1) u from funext fun a => Fin.ext (by
      match a with
      | ⟨0, _⟩ => show win0_12.index t (0 : Fin 2) * 1 + 1 * 0 = 0; omega
      | ⟨1, _⟩ => show win0_12.index t (1 : Fin 2) * 256 + 1 * q.val = u.val; omega),
    shapeCast_a_1a_apply]
/-- Window 13's block at point `t` is columns `t * 256 ... t * 256 + 255` of its matrix. -/
theorem blk13 (c : Dev nD) (t : Fin cfg0.N) (k : Fin 2048) (q : Fin 256) (u : Fin 2048) (hu : u.val = t.val * 256 + q.val) :
    iblk m c 13 t (ix2 k q) = (m ((c : Thread nD τ).loc main_arg13)) (ix2 k u) := by
  obtain ⟨e0, e1⟩ := ix_w13 t
  show V m c main_arg13 (((cfg0.win 13).blk t).view.emb (ix2 k q)) = _
  rw [V_main_arg13]
  refine congrArg _ (funext fun a => Fin.ext ?_)
  match a with
  | ⟨0, _⟩ => show win0_13.index t (0 : Fin 2) * 2048 + 1 * k.val = k.val; omega
  | ⟨1, _⟩ => show win0_13.index t (1 : Fin 2) * 256 + 1 * q.val = u.val; omega
/-- Window 14's block at point `t` is columns `t * 256 ... t * 256 + 255` of its matrix. -/
theorem blk14 (c : Dev nD) (t : Fin cfg0.N) (k : Fin 2048) (q : Fin 256) (u : Fin 2048) (hu : u.val = t.val * 256 + q.val) :
    iblk m c 14 t (ix2 k q) = (m ((c : Thread nD τ).loc main_arg14)) (ix2 k u) := by
  obtain ⟨e0, e1⟩ := ix_w14 t
  show V m c main_arg14 (((cfg0.win 14).blk t).view.emb (ix2 k q)) = _
  rw [V_main_arg14]
  refine congrArg _ (funext fun a => Fin.ext ?_)
  match a with
  | ⟨0, _⟩ => show win0_14.index t (0 : Fin 2) * 2048 + 1 * k.val = k.val; omega
  | ⟨1, _⟩ => show win0_14.index t (1 : Fin 2) * 256 + 1 * q.val = u.val; omega
/-- Window 15's block at point `t` is columns `t * 256 ... t * 256 + 255` of its matrix. -/
theorem blk15 (c : Dev nD) (t : Fin cfg0.N) (k : Fin 2048) (q : Fin 256) (u : Fin 2048) (hu : u.val = t.val * 256 + q.val) :
    iblk m c 15 t (ix2 k q) = (m ((c : Thread nD τ).loc main_arg15)) (ix2 k u) := by
  obtain ⟨e0, e1⟩ := ix_w15 t
  show V m c main_arg15 (((cfg0.win 15).blk t).view.emb (ix2 k q)) = _
  rw [V_main_arg15]
  refine congrArg _ (funext fun a => Fin.ext ?_)
  match a with
  | ⟨0, _⟩ => show win0_15.index t (0 : Fin 2) * 2048 + 1 * k.val = k.val; omega
  | ⟨1, _⟩ => show win0_15.index t (1 : Fin 2) * 256 + 1 * q.val = u.val; omega
/-- Window 16's block at point `t` is columns `t * 256 ... t * 256 + 255` of its matrix. -/
theorem blk16 (c : Dev nD) (t : Fin cfg0.N) (k : Fin 2048) (q : Fin 256) (u : Fin 2048) (hu : u.val = t.val * 256 + q.val) :
    iblk m c 16 t (ix2 k q) = (m ((c : Thread nD τ).loc main_arg16)) (ix2 k u) := by
  obtain ⟨e0, e1⟩ := ix_w16 t
  show V m c main_arg16 (((cfg0.win 16).blk t).view.emb (ix2 k q)) = _
  rw [V_main_arg16]
  refine congrArg _ (funext fun a => Fin.ext ?_)
  match a with
  | ⟨0, _⟩ => show win0_16.index t (0 : Fin 2) * 2048 + 1 * k.val = k.val; omega
  | ⟨1, _⟩ => show win0_16.index t (1 : Fin 2) * 256 + 1 * q.val = u.val; omega

/-! ## A tile's pre-activation is the cell's -/

/-- If the tile's blocks are the arrays' entries at unit `un` (the weights' column, the bias's entry) and at row `p` (the
    input's and the hidden state's), the tile's pre-activation at `(p, q)` is the cell's at `(p, un)`. -/
theorem tilePre_eq (a0 a1 : S256x2048.Idx → EReal) (w u : S2048x256.Idx → EReal) (b : S1x256.Idx → EReal)
    (x h : S256x2048.Idx → EReal) (W U : S2048x2048.Idx → EReal) (bias : S2048.Idx → EReal) (p q : Fin 256) (un : Fin 2048)
    (h0 : ∀ k, a0 (ix2 p k) = x (ix2 p k)) (h1 : ∀ k, a1 (ix2 p k) = h (ix2 p k))
    (hw : ∀ k, w (ix2 k q) = W (ix2 k un)) (hu : ∀ k, u (ix2 k q) = U (ix2 k un))
    (hb : b (ix2 (0 : Fin 1) q) = bias (ix1 un)) :
    tilePre a0 a1 w u b p q = pre x h W U bias p un := by
  unfold tilePre pre
  simp only [h0, h1, hw, hu, hb]

/-! ## What a point writes back, the cover, the array -/

/-- The cell's update rule of the argument arrays as the program was launched with them: the result array. -/
abbrev result (c : Dev nD) : S4x256x2048.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- Point `t` writes back the tile of the update rule that its block names. -/
theorem flushed_eq (c : Dev nD) (t : Fin cfg0.N) :
    (dats m 0 c).flushed 17 t = ((cfg0.win 17).blk t).view.read (Elt Ideal) (result m c) := by
  rw [Value.flushed17, KernelCell.out_eq]
  funext y
  obtain ⟨e0, e1, e2⟩ := ix_w17 t
  have hq : (y 2).val < 256 := (y 2).isLt
  have ht : t.val < 8 := t.isLt
  obtain ⟨u, hu⟩ : ∃ u : Fin 2048, u.val = t.val * 256 + (y 2).val := ⟨⟨t.val * 256 + (y 2).val, by omega⟩, rfl⟩
  have he : ((cfg0.win 17).blk t).view.emb y = ix3 (y 0) (y 1) u := funext fun a => Fin.ext (by
    match a with
    | ⟨0, _⟩ => show win0_17.index t (0 : Fin 3) * 4 + 1 * (y 0).val = (y 0).val; omega
    | ⟨1, _⟩ => show win0_17.index t (1 : Fin 3) * 256 + 1 * (y 1).val = (y 1).val; omega
    | ⟨2, _⟩ => show win0_17.index t (2 : Fin 3) * 256 + 1 * (y 2).val = u.val; omega)
  have hz : tilePre (iblk m c 0 t) (iblk m c 1 t) (iblk m c 5 t) (iblk m c 13 t) (iblk m c 9 t) (y 1) (y 2)
      = pre (m ((c : Thread nD τ).loc main_arg0)) (m ((c : Thread nD τ).loc main_arg1)) (m ((c : Thread nD τ).loc main_arg5)) (m ((c : Thread nD τ).loc main_arg13)) (m ((c : Thread nD τ).loc main_arg9)) (y 1) u :=
    tilePre_eq (iblk m c 0 t) (iblk m c 1 t) (iblk m c 5 t) (iblk m c 13 t) (iblk m c 9 t) (m ((c : Thread nD τ).loc main_arg0)) (m ((c : Thread nD τ).loc main_arg1)) (m ((c : Thread nD τ).loc main_arg5)) (m ((c : Thread nD τ).loc main_arg13)) (m ((c : Thread nD τ).loc main_arg9)) (y 1) (y 2) u
      (fun k => blk0 m c t (y 1) k) (fun k => blk1 m c t (y 1) k) (fun k => blk5 m c t k (y 2) u hu)
      (fun k => blk13 m c t k (y 2) u hu) (blk9 m c t (y 2) u hu)
  have hi : tilePre (iblk m c 0 t) (iblk m c 1 t) (iblk m c 6 t) (iblk m c 14 t) (iblk m c 10 t) (y 1) (y 2)
      = pre (m ((c : Thread nD τ).loc main_arg0)) (m ((c : Thread nD τ).loc main_arg1)) (m ((c : Thread nD τ).loc main_arg6)) (m ((c : Thread nD τ).loc main_arg14)) (m ((c : Thread nD τ).loc main_arg10)) (y 1) u :=
    tilePre_eq (iblk m c 0 t) (iblk m c 1 t) (iblk m c 6 t) (iblk m c 14 t) (iblk m c 10 t) (m ((c : Thread nD τ).loc main_arg0)) (m ((c : Thread nD τ).loc main_arg1)) (m ((c : Thread nD τ).loc main_arg6)) (m ((c : Thread nD τ).loc main_arg14)) (m ((c : Thread nD τ).loc main_arg10)) (y 1) (y 2) u
      (fun k => blk0 m c t (y 1) k) (fun k => blk1 m c t (y 1) k) (fun k => blk6 m c t k (y 2) u hu)
      (fun k => blk14 m c t k (y 2) u hu) (blk10 m c t (y 2) u hu)
  have hf : tilePre (iblk m c 0 t) (iblk m c 1 t) (iblk m c 7 t) (iblk m c 15 t) (iblk m c 11 t) (y 1) (y 2)
      = pre (m ((c : Thread nD τ).loc main_arg0)) (m ((c : Thread nD τ).loc main_arg1)) (m ((c : Thread nD τ).loc main_arg7)) (m ((c : Thread nD τ).loc main_arg15)) (m ((c : Thread nD τ).loc main_arg11)) (y 1) u :=
    tilePre_eq (iblk m c 0 t) (iblk m c 1 t) (iblk m c 7 t) (iblk m c 15 t) (iblk m c 11 t) (m ((c : Thread nD τ).loc main_arg0)) (m ((c : Thread nD τ).loc main_arg1)) (m ((c : Thread nD τ).loc main_arg7)) (m ((c : Thread nD τ).loc main_arg15)) (m ((c : Thread nD τ).loc main_arg11)) (y 1) (y 2) u
      (fun k => blk0 m c t (y 1) k) (fun k => blk1 m c t (y 1) k) (fun k => blk7 m c t k (y 2) u hu)
      (fun k => blk15 m c t k (y 2) u hu) (blk11 m c t (y 2) u hu)
  have ho : tilePre (iblk m c 0 t) (iblk m c 1 t) (iblk m c 8 t) (iblk m c 16 t) (iblk m c 12 t) (y 1) (y 2)
      = pre (m ((c : Thread nD τ).loc main_arg0)) (m ((c : Thread nD τ).loc main_arg1)) (m ((c : Thread nD τ).loc main_arg8)) (m ((c : Thread nD τ).loc main_arg16)) (m ((c : Thread nD τ).loc main_arg12)) (y 1) u :=
    tilePre_eq (iblk m c 0 t) (iblk m c 1 t) (iblk m c 8 t) (iblk m c 16 t) (iblk m c 12 t) (m ((c : Thread nD τ).loc main_arg0)) (m ((c : Thread nD τ).loc main_arg1)) (m ((c : Thread nD τ).loc main_arg8)) (m ((c : Thread nD τ).loc main_arg16)) (m ((c : Thread nD τ).loc main_arg12)) (y 1) (y 2) u
      (fun k => blk0 m c t (y 1) k) (fun k => blk1 m c t (y 1) k) (fun k => blk8 m c t k (y 2) u hu)
      (fun k => blk16 m c t k (y 2) u hu) (blk12 m c t (y 2) u hu)
  have hm : (iblk m c 4 t) (ix2 (y 1) (y 2)) = (m ((c : Thread nD τ).loc main_arg4)) (ix2 (y 1) u) := blk4 m c t (y 1) (y 2) u hu
  have hc : (iblk m c 2 t) (ix2 (y 1) (y 2)) = (m ((c : Thread nD τ).loc main_arg2)) (ix2 (y 1) u) := blk2 m c t (y 1) (y 2) u hu
  have hn : (iblk m c 3 t) (ix2 (y 1) (y 2)) = (m ((c : Thread nD τ).loc main_arg3)) (ix2 (y 1) u) := blk3 m c t (y 1) (y 2) u hu
  show _ = result m c (((cfg0.win 17).blk t).view.emb y)
  rw [he]
  show Cell.out (y 0) _ _ _ _ _ _ _ = Cell.out (y 0) _ _ _ _ _ _ _
  rw [hz, hi, hf, ho, hm, hc, hn]

/-- An index of the result array is in point `t`'s block iff each coordinate is in the block's range on its axis. -/
theorem mem_blk (t : Fin cfg0.N) (i : S4x256x2048.Idx) :
    i ∈ ((cfg0.win 17).blk t).view.set ↔ ∀ a : Fin 3, win0_17.index t a * S4x256x256.size a ≤ (i a).val
      ∧ (i a).val < win0_17.index t a * S4x256x256.size a + S4x256x256.size a := by
  show i ∈ ((View.whole main_v6).slice (win0_17.rect t)).set ↔ _
  rw [View.set_slice_whole, Rect.mem_set_unit]
  exact Iff.rfl

/-- Every index of the result array lies in the block of the point that owns its unit. -/
theorem cover (i : S4x256x2048.Idx) :
    ∃ t : Fin cfg0.N, (cfg0.win 17).flush t = true ∧ i ∈ ((cfg0.win 17).blk t).view.set := by
  have h0 : (i 0).val < 4 := (i 0).isLt
  have h1 : (i 1).val < 256 := (i 1).isLt
  have h2 : (i 2).val < 2048 := (i 2).isLt
  obtain ⟨t, ht⟩ : ∃ t : Fin cfg0.N, t.val = (i 2).val / 256 :=
    ⟨⟨(i 2).val / 256, by show (i 2).val / 256 < 8; omega⟩, rfl⟩
  obtain ⟨e0, e1, e2⟩ := ix_w17 t
  refine ⟨t, flush0_17 t, ?_⟩
  rw [mem_blk]
  intro a
  match a with
  | ⟨0, _⟩ =>
    show win0_17.index t (0 : Fin 3) * 4 ≤ (i 0).val ∧ (i 0).val < win0_17.index t (0 : Fin 3) * 4 + 4
    omega
  | ⟨1, _⟩ =>
    show win0_17.index t (1 : Fin 3) * 256 ≤ (i 1).val ∧ (i 1).val < win0_17.index t (1 : Fin 3) * 256 + 256
    omega
  | ⟨2, _⟩ =>
    show win0_17.index t (2 : Fin 3) * 256 ≤ (i 2).val ∧ (i 2).val < win0_17.index t (2 : Fin 3) * 256 + 256
    omega

/-- After the last point the result array is the update rule everywhere. -/
theorem final (c : Dev nD) : (dats m 0 c).arrAt 17 cfg0.N = result m c :=
  (dats m 0 c).arrAt_eq_of_cover 17 (result m c) (fun t _ => flushed_eq m c t) cover

/-- The kernel's run: every weakly fair execution ends with the result array at the update rule of the arguments, and the
    arguments as they were. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.Tiles

end
-- ==== Proof.LibJoin4.lean ====
/-
  A join of four arrays of one shape along an axis, read at an index.

  The joined axis is cut into four stretches of the pieces' common extent `K`. An index whose coordinate on that axis is
  `g * K + c` with `c < K` lies in stretch `g`, and reads piece `g` at the same coordinates off the axis and `c` on it.
-/
import Idealize.ShloMosaic.Lib.Pipeline.Value

namespace Cert.LibJoin4

open Idealize.ShloMosaic

/-- Piece `g` of a four-way join, at the index `i` that agrees with `j` off the joined axis and sits `g * K` below it on
    that axis. -/
theorem join4_apply {t s : Shape} {α : Type} (a : Fin t.rank) (y0 y1 y2 y3 : s.Idx → α)
    (h : Shape.Concatenates (([⟨s, y0⟩, ⟨s, y1⟩, ⟨s, y2⟩, ⟨s, y3⟩] : List ((s : Shape) × (s.Idx → α))).map (·.1)) t a)
    (hr : s.rank = t.rank) (K : ℕ) (hK : s.size (a.cast hr.symm) = K) (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, y0⟩, ⟨s, y1⟩, ⟨s, y2⟩, ⟨s, y3⟩] h j = (![y0, y1, y2, y3] g) i := by
  match g, ha with
  | ⟨0, _⟩, ha =>
    have ha' : 0 * K + (i (a.cast hr.symm)).val = (j a).val := ha
    exact concatenate_apply_piece a _ h j 0 (by show (0 : ℕ) < 4; omega) s y0 rfl hr 0 rfl i hi (by omega)
  | ⟨1, _⟩, ha =>
    have ha' : 1 * K + (i (a.cast hr.symm)).val = (j a).val := ha
    exact concatenate_apply_piece a _ h j 1 (by show (1 : ℕ) < 4; omega) s y1 rfl hr K (by simp [dif_pos hr, hK]) i hi (by omega)
  | ⟨2, _⟩, ha =>
    have ha' : 2 * K + (i (a.cast hr.symm)).val = (j a).val := ha
    exact concatenate_apply_piece a _ h j 2 (by show (2 : ℕ) < 4; omega) s y2 rfl hr (K + K) (by simp [dif_pos hr, hK]) i hi (by omega)
  | ⟨3, _⟩, ha =>
    have ha' : 3 * K + (i (a.cast hr.symm)).val = (j a).val := ha
    exact concatenate_apply_piece a _ h j 3 (by show (3 : ℕ) < 4; omega) s y3 rfl hr (K + (K + K)) (by simp [dif_pos hr, hK]) i hi (by omega)

end Cert.LibJoin4
-- ==== Proof.LibSigmoid.lean ====
/-
  The logistic function written out. On the extended reals `logistic v` is by definition `1 / (1 + exp (-v))`, with the
  division's and the exponential's conventions at the infinities (so `0` at the bottom and `1` at the top). A host
  program that spells it as negate, exponential, add one, divide one by the sum computes the same function once its
  constant, the single-precision word of one, is read as `1`.
-/
import Idealize.ShloMosaic.PureOps.Ideal

noncomputable section

namespace Cert.LibSigmoid

open Idealize.ShloMosaic

/-- The single-precision word `0x3F800000` denotes one. -/
theorem word_one : Ideal.ofBits .f32 0x3F800000#32 = 1 := by
  simp [Ideal.ofBits, Ideal.ieee, -EReal.coe_mul]; norm_num

/-- One over one plus the exponential of the negation, with that word for both ones, is the logistic function. -/
theorem expanded_eq_logistic (v : EReal) :
    Ideal.div (Ideal.ofBits .f32 0x3F800000#32) (Ideal.ofBits .f32 0x3F800000#32 + Ideal.exp (-v)) = Ideal.logistic v := by
  rw [word_one]; rfl

end Cert.LibSigmoid

end
-- ==== Proof.RefCell.lean ====
/-
  The reference program's result is the cell's update rule.

  The reference joins the four gates' input weights side by side into one 2048-by-8192 matrix, likewise the recurrent
  weights, and the four biases end to end; one wide product of the input, one of the previous hidden state and the joined
  bias give all four pre-activations at once, and gate `g` is the band of columns `g * 2048 ... g * 2048 + 2047`. Column
  `g * 2048 + u` of a joined matrix is column `u` of its `g`-th piece, so a band of the wide product is the gate's own
  product. The rest is entrywise and is the update rule word for word, with the logistic function written out as one
  over one plus the exponential of the negation. The four results are stacked along a new leading axis.
-/
import proofs.«170218_j21380347199691_2_alg».proof.Proof.Gen.ReferenceIdeal.Read
import proofs.«170218_j21380347199691_2_alg».proof.Proof.Cell
import proofs.«170218_j21380347199691_2_alg».proof.Proof.LibJoin4
import proofs.«170218_j21380347199691_2_alg».proof.Proof.LibSigmoid
import Idealize.ShloMosaic.Lib.ValueIdx

noncomputable section

namespace Cert.RefCell

open Cert.ReferenceIdeal Cert.ReferenceIdeal.Gen Cert.ReferenceIdeal.Read
open Idealize.ShloMosaic Idealize.ShloMosaic.TcCoe Idealize.ShloMosaic.ValueIdx
open Cert.Cell Cert.LibJoin4 Cert.LibSigmoid

/-! ## The joins -/

section Joins

variable (y0 y1 y2 y3 : (⟨S2048x2048, .f32⟩ : BufTy).Contents (Elt Ideal))
variable (z0 z1 z2 z3 : (⟨S2048, .f32⟩ : BufTy).Contents (Elt Ideal))

/-- Column `g * 2048 + u` of the joined input weights is column `u` of the `g`-th matrix. -/
theorem wjoin_apply (g : Fin 4) (k u : Fin 2048) (j : S2048x8192.Idx) (h0 : (j 0).val = k.val)
    (h1 : (j 1).val = g.val * 2048 + u.val) :
    val_main_v0 (F := Ideal) y0 y1 y2 y3 j = (![y0, y1, y2, y3] g) (ix2 k u) := by
  unfold val_main_v0
  exact join4_apply (t := S2048x8192) (s := S2048x2048) (1 : Fin 2) y0 y1 y2 y3 _ rfl 2048 rfl j g (ix2 k u)
    (fun b hb => by
      match b, hb with
      | ⟨0, _⟩, _ => exact h0.symm
      | ⟨1, _⟩, hb => exact absurd rfl hb) h1.symm

/-- The same for the joined recurrent weights. -/
theorem ujoin_apply (g : Fin 4) (k u : Fin 2048) (j : S2048x8192.Idx) (h0 : (j 0).val = k.val)
    (h1 : (j 1).val = g.val * 2048 + u.val) :
    val_main_v1 (F := Ideal) y0 y1 y2 y3 j = (![y0, y1, y2, y3] g) (ix2 k u) := by
  unfold val_main_v1
  exact join4_apply (t := S2048x8192) (s := S2048x2048) (1 : Fin 2) y0 y1 y2 y3 _ rfl 2048 rfl j g (ix2 k u)
    (fun b hb => by
      match b, hb with
      | ⟨0, _⟩, _ => exact h0.symm
      | ⟨1, _⟩, hb => exact absurd rfl hb) h1.symm

/-- Entry `g * 2048 + u` of the joined biases is entry `u` of the `g`-th bias. -/
theorem bjoin_apply (g : Fin 4) (u : Fin 2048) (j : S8192.Idx) (h0 : (j 0).val = g.val * 2048 + u.val) :
    val_main_v2 (F := Ideal) z0 z1 z2 z3 j = (![z0, z1, z2, z3] g) (ix1 u) := by
  unfold val_main_v2
  exact join4_apply (t := S8192) (s := S2048) (0 : Fin 1) z0 z1 z2 z3 _ rfl 2048 rfl j g (ix1 u)
    (fun b hb => by
      match b, hb with
      | ⟨0, _⟩, hb => exact absurd rfl hb) h0.symm

end Joins

/-! ## The named values of the reference, at a batch row and a unit -/

section Values

variable (x0 x1 x2 x3 x4 : (⟨S256x2048, .f32⟩ : BufTy).Contents (Elt Ideal))
variable (x5 x6 x7 x8 : (⟨S2048x2048, .f32⟩ : BufTy).Contents (Elt Ideal))
variable (x9 x10 x11 x12 : (⟨S2048, .f32⟩ : BufTy).Contents (Elt Ideal))
variable (x13 x14 x15 x16 : (⟨S2048x2048, .f32⟩ : BufTy).Contents (Elt Ideal))

/-- The wide pre-activation at row `r` and column `g * 2048 + u` is gate `g`'s pre-activation at `(r, u)`. -/
theorem wide_apply (g : Fin 4) (r : Fin 256) (u : Fin 2048) (j : S256x8192.Idx) (h0 : (j 0).val = r.val)
    (h1 : (j 1).val = g.val * 2048 + u.val) :
    val_main_v8 (F := Ideal) x0 x1 x5 x6 x7 x8 x9 x10 x11 x12 x13 x14 x15 x16 j
      = pre x0 x1 (![x5, x6, x7, x8] g) (![x13, x14, x15, x16] g) (![x9, x10, x11, x12] g) r u := by
  have el3 : ∀ k : Fin 2048, lidx_main_v3 j k = ix2 r k := fun k => funext fun a => Fin.ext (by
    match a with
    | ⟨0, _⟩ => exact h0
    | ⟨1, _⟩ => rfl)
  have el4 : ∀ k : Fin 2048, lidx_main_v4 j k = ix2 r k := fun k => funext fun a => Fin.ext (by
    match a with
    | ⟨0, _⟩ => exact h0
    | ⟨1, _⟩ => rfl)
  have s3 : ∀ k : Fin 2048, x0 (lidx_main_v3 j k) * val_main_v0 (F := Ideal) x5 x6 x7 x8 (ridx_main_v3 j k)
      = x0 (ix2 r k) * (![x5, x6, x7, x8] g) (ix2 k u) := fun k => by
    rw [el3 k, wjoin_apply x5 x6 x7 x8 g k u (ridx_main_v3 j k) rfl h1]
  have s4 : ∀ k : Fin 2048, x1 (lidx_main_v4 j k) * val_main_v1 (F := Ideal) x13 x14 x15 x16 (ridx_main_v4 j k)
      = x1 (ix2 r k) * (![x13, x14, x15, x16] g) (ix2 k u) := fun k => by
    rw [el4 k, ujoin_apply x13 x14 x15 x16 g k u (ridx_main_v4 j k) rfl h1]
  rw [val_main_v8_apply, val_main_v5_apply, val_main_v3_apply, val_main_v4_apply, val_main_v7_apply, val_main_v6_apply,
    bjoin_apply x9 x10 x11 x12 g u _ h1, Finset.sum_congr rfl (fun k _ => s3 k), Finset.sum_congr rfl (fun k _ => s4 k)]
  rfl

variable (r : Fin 256) (u : Fin 2048)

/-- The candidate's pre-activation: the first band. -/
theorem pz_apply : val_main_v9 (F := Ideal) x0 x1 x5 x6 x7 x8 x9 x10 x11 x12 x13 x14 x15 x16 (ix2 r u) = pre x0 x1 x5 x13 x9 r u := by
  rw [val_main_v9_apply]
  exact wide_apply x0 x1 x5 x6 x7 x8 x9 x10 x11 x12 x13 x14 x15 x16 0 r u _ rfl (by show u.val = 0 * 2048 + u.val; omega)

/-- The input gate's: the second band. -/
theorem pi_apply : val_main_v10 (F := Ideal) x0 x1 x5 x6 x7 x8 x9 x10 x11 x12 x13 x14 x15 x16 (ix2 r u) = pre x0 x1 x6 x14 x10 r u := by
  rw [val_main_v10_apply]
  exact wide_apply x0 x1 x5 x6 x7 x8 x9 x10 x11 x12 x13 x14 x15 x16 1 r u _ rfl (by show 2048 + u.val = 1 * 2048 + u.val; omega)

/-- The forget gate's: the third band. -/
theorem pf_apply : val_main_v11 (F := Ideal) x0 x1 x5 x6 x7 x8 x9 x10 x11 x12 x13 x14 x15 x16 (ix2 r u) = pre x0 x1 x7 x15 x11 r u := by
  rw [val_main_v11_apply]
  exact wide_apply x0 x1 x5 x6 x7 x8 x9 x10 x11 x12 x13 x14 x15 x16 2 r u _ rfl (by show 4096 + u.val = 2 * 2048 + u.val; omega)

/-- The output gate's: the fourth band. -/
theorem po_apply : val_main_v12 (F := Ideal) x0 x1 x5 x6 x7 x8 x9 x10 x11 x12 x13 x14 x15 x16 (ix2 r u) = pre x0 x1 x8 x16 x12 r u := by
  rw [val_main_v12_apply]
  exact wide_apply x0 x1 x5 x6 x7 x8 x9 x10 x11 x12 x13 x14 x15 x16 3 r u _ rfl (by show 6144 + u.val = 3 * 2048 + u.val; omega)

/-- The new stabilizer. -/
theorem m_apply : val_main_v14 (F := Ideal) x0 x1 x4 x5 x6 x7 x8 x9 x10 x11 x12 x13 x14 x15 x16 (ix2 r u) = mNew (pre x0 x1 x6 x14 x10 r u) (x4 (ix2 r u)) := by
  rw [val_main_v14_apply, val_main_v13_apply, pi_apply]
  rfl

/-- The input gate. -/
theorem i_apply : val_main_v16 (F := Ideal) x0 x1 x4 x5 x6 x7 x8 x9 x10 x11 x12 x13 x14 x15 x16 (ix2 r u) = iGate (pre x0 x1 x6 x14 x10 r u) (x4 (ix2 r u)) := by
  rw [val_main_v16_apply, val_main_v15_apply, m_apply, pi_apply]
  rfl

/-- The forget gate. -/
theorem f_apply : val_main_v19 (F := Ideal) x0 x1 x4 x5 x6 x7 x8 x9 x10 x11 x12 x13 x14 x15 x16 (ix2 r u) = fGate (pre x0 x1 x7 x15 x11 r u) (pre x0 x1 x6 x14 x10 r u) (x4 (ix2 r u)) := by
  rw [val_main_v19_apply, val_main_v18_apply, val_main_v17_apply, m_apply, pf_apply]
  rfl

/-- The output gate: the logistic function, written out by the host. -/
theorem o_apply : val_main_v25 (F := Ideal) x0 x1 x5 x6 x7 x8 x9 x10 x11 x12 x13 x14 x15 x16 (ix2 r u) = Ideal.logistic (pre x0 x1 x8 x16 x12 r u) := by
  rw [val_main_v25_apply, val_main_v24_apply, val_main_cst_0_apply, val_main_v23_apply, val_main_v22_apply,
    val_main_cst_apply, val_main_v21_apply, val_main_v20_apply, po_apply]
  exact expanded_eq_logistic _

/-- The new cell. -/
theorem c_apply : val_main_v29 (F := Ideal) x0 x1 x2 x4 x5 x6 x7 x8 x9 x10 x11 x12 x13 x14 x15 x16 (ix2 r u) = cNew (pre x0 x1 x5 x13 x9 r u) (pre x0 x1 x6 x14 x10 r u) (pre x0 x1 x7 x15 x11 r u) (x4 (ix2 r u)) (x2 (ix2 r u)) := by
  rw [val_main_v29_apply, val_main_v27_apply, val_main_v28_apply, val_main_v26_apply, f_apply, i_apply, pz_apply]
  rfl

/-- The new normalizer. -/
theorem n_apply : val_main_v31 (F := Ideal) x0 x1 x3 x4 x5 x6 x7 x8 x9 x10 x11 x12 x13 x14 x15 x16 (ix2 r u) = nNew (pre x0 x1 x6 x14 x10 r u) (pre x0 x1 x7 x15 x11 r u) (x4 (ix2 r u)) (x3 (ix2 r u)) := by
  rw [val_main_v31_apply, val_main_v30_apply, f_apply, i_apply]
  rfl

/-- The new hidden state. -/
theorem h_apply : val_main_v35 (F := Ideal) x0 x1 x2 x3 x4 x5 x6 x7 x8 x9 x10 x11 x12 x13 x14 x15 x16 (ix2 r u) = hNew (pre x0 x1 x5 x13 x9 r u) (pre x0 x1 x6 x14 x10 r u) (pre x0 x1 x7 x15 x11 r u) (pre x0 x1 x8 x16 x12 r u) (x4 (ix2 r u)) (x2 (ix2 r u)) (x3 (ix2 r u)) := by
  rw [val_main_v35_apply, val_main_v34_apply, val_main_v33_apply, val_main_v32_apply, val_main_cst_1_apply, o_apply,
    c_apply, n_apply]
  rfl

end Values

/-! ## The stack -/

section Stack

variable (x0 x1 x2 x3 x4 : (⟨S256x2048, .f32⟩ : BufTy).Contents (Elt Ideal))
variable (x5 x6 x7 x8 : (⟨S2048x2048, .f32⟩ : BufTy).Contents (Elt Ideal))
variable (x9 x10 x11 x12 : (⟨S2048, .f32⟩ : BufTy).Contents (Elt Ideal))
variable (x13 x14 x15 x16 : (⟨S2048x2048, .f32⟩ : BufTy).Contents (Elt Ideal))

/-- A result given a unit leading axis reads, at `(0, r, u)`, the result at `(r, u)`. -/
theorem lead_idx (k : S1x256x2048.Idx → S256x2048.Idx) (r : Fin 256) (u : Fin 2048)
    (h0 : (k (ix3 (0 : Fin 1) r u) 0).val = r.val) (h1 : (k (ix3 (0 : Fin 1) r u) 1).val = u.val) :
    k (ix3 (0 : Fin 1) r u) = ix2 r u :=
  funext fun a => Fin.ext (by
    match a with
    | ⟨0, _⟩ => exact h0
    | ⟨1, _⟩ => exact h1)

/-- The reference's result, index by index, is the cell's update rule of the argument arrays. -/
theorem ref_eq : val_main_v40 (F := Ideal) x0 x1 x2 x3 x4 x5 x6 x7 x8 x9 x10 x11 x12 x13 x14 x15 x16 = G x0 x1 x2 x3 x4 x5 x6 x7 x8 x9 x10 x11 x12 x13 x14 x15 x16 := by
  funext j
  obtain ⟨g, r, u, rfl⟩ : ∃ (g : Fin 4) (r : Fin 256) (u : Fin 2048), j = ix3 g r u := ⟨j 0, j 1, j 2, eq_ix3 j⟩
  unfold val_main_v40
  rw [join4_apply (t := S4x256x2048) (s := S1x256x2048) (0 : Fin 3) _ _ _ _ _ rfl 1 rfl (ix3 g r u) g (ix3 (0 : Fin 1) r u)
    (fun b hb => by
      match b, hb with
      | ⟨0, _⟩, hb => exact absurd rfl hb
      | ⟨1, _⟩, _ => rfl
      | ⟨2, _⟩, _ => rfl) (by show g.val * 1 + 0 = g.val; omega)]
  match g with
  | ⟨0, _⟩ =>
    show val_main_v36 (F := Ideal) x0 x1 x2 x3 x4 x5 x6 x7 x8 x9 x10 x11 x12 x13 x14 x15 x16 (ix3 (0 : Fin 1) r u) = _
    rw [val_main_v36_apply, lead_idx idx_main_v36 r u rfl rfl]
    exact h_apply x0 x1 x2 x3 x4 x5 x6 x7 x8 x9 x10 x11 x12 x13 x14 x15 x16 r u
  | ⟨1, _⟩ =>
    show val_main_v37 (F := Ideal) x0 x1 x2 x4 x5 x6 x7 x8 x9 x10 x11 x12 x13 x14 x15 x16 (ix3 (0 : Fin 1) r u) = _
    rw [val_main_v37_apply, lead_idx idx_main_v37 r u rfl rfl]
    exact c_apply x0 x1 x2 x4 x5 x6 x7 x8 x9 x10 x11 x12 x13 x14 x15 x16 r u
  | ⟨2, _⟩ =>
    show val_main_v38 (F := Ideal) x0 x1 x3 x4 x5 x6 x7 x8 x9 x10 x11 x12 x13 x14 x15 x16 (ix3 (0 : Fin 1) r u) = _
    rw [val_main_v38_apply, lead_idx idx_main_v38 r u rfl rfl]
    exact n_apply x0 x1 x3 x4 x5 x6 x7 x8 x9 x10 x11 x12 x13 x14 x15 x16 r u
  | ⟨3, _⟩ =>
    show val_main_v39 (F := Ideal) x0 x1 x4 x5 x6 x7 x8 x9 x10 x11 x12 x13 x14 x15 x16 (ix3 (0 : Fin 1) r u) = _
    rw [val_main_v39_apply, lead_idx idx_main_v39 r u rfl rfl]
    exact m_apply x0 x1 x4 x5 x6 x7 x8 x9 x10 x11 x12 x13 x14 x15 x16 r u

end Stack

end Cert.RefCell

end
-- ==== Proof.lean ====
/-
  One step of a stabilized, exponentially gated recurrent cell: a tiled kernel against a plain reference.

  Both programs take an input and a previous hidden state (256 rows), the previous cell, normalizer and stabilizer, and for
  each of four gates an input weight matrix, a recurrent weight matrix and a bias; both return the new hidden state, cell,
  normalizer and stabilizer stacked along a leading axis of extent four (Proof/Cell.lean has the update rule).

  The kernel walks eight tiles of 256 units. Per tile it forms each gate's pre-activation as two matrix products into a zero
  accumulator plus the bias row, applies the update rule entrywise, and writes the four results as four slabs of one
  buffer (Proof/KernelCell.lean); a tile entry is an entry of the whole arrays at unit `t * 256 + q`, and the tiles cover
  the units, so the result array is the update rule everywhere (Proof/Tiles.lean). The reference joins the gates' weights
  side by side, takes two wide products, cuts the four bands back out, and writes the logistic function out as one over one
  plus the exponential of the negation (Proof/RefCell.lean). A band of a product with a join is the product with the
  piece; a change of float format keeps every entry; a product is a sum over the shared index however it is accumulated;
  and the logistic function is that quotient by definition. So the two results are one function of the arguments, on all
  extended reals: no entry needs to be finite. The kernel's idealization rewrote nothing, so it is the kernel's own text.
  The frames of the two kernels are the generated ones; the reference's frame is its generated run with the result dropped.
-/
import proofs.«170218_j21380347199691_2_alg».proof.Defs
import proofs.«170218_j21380347199691_2_alg».proof.Proof.Gen.Kernel
import proofs.«170218_j21380347199691_2_alg».proof.Proof.Gen.Kernel.Skeleton
import proofs.«170218_j21380347199691_2_alg».proof.Proof.Gen.Kernel.Launch
import proofs.«170218_j21380347199691_2_alg».proof.Proof.Gen.Kernel.Points
import proofs.«170218_j21380347199691_2_alg».proof.Proof.Gen.Kernel.Frame
import proofs.«170218_j21380347199691_2_alg».proof.Proof.Gen.KernelIdeal
import proofs.«170218_j21380347199691_2_alg».proof.Proof.Gen.KernelIdeal.Skeleton
import proofs.«170218_j21380347199691_2_alg».proof.Proof.Gen.KernelIdeal.Launch
import proofs.«170218_j21380347199691_2_alg».proof.Proof.Gen.KernelIdeal.Points
import proofs.«170218_j21380347199691_2_alg».proof.Proof.Gen.KernelIdeal.Frame
import proofs.«170218_j21380347199691_2_alg».proof.Proof.Gen.ReferenceIdeal
import proofs.«170218_j21380347199691_2_alg».proof.Proof.Gen.Pre_finite_inputs
import proofs.«170218_j21380347199691_2_alg».proof.Proof.Gen.KernelIdeal.Value
import proofs.«170218_j21380347199691_2_alg».proof.Proof.Gen.ReferenceIdeal.Run
import proofs.«170218_j21380347199691_2_alg».proof.Proof.Gen.ReferenceIdeal.Read
import proofs.«170218_j21380347199691_2_alg».proof.Proof.Tiles
import proofs.«170218_j21380347199691_2_alg».proof.Proof.RefCell
import Idealize.ShloMosaic.Adequacy
import Idealize.ShloMosaic.Init

noncomputable section

namespace Cert.Proof

open Idealize.ShloMosaic Idealize.ShloMosaic.TcCoe Idealize.SL.Sem

/-- From memories that agree on the arguments, the kernel ends with its result array at the update rule of its arguments
    and the reference with its result at the update rule of its own: the same array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Tiles.result m c, Cert.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v40_eq, Cert.RefCell.ref_eq, a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
